-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S4096x512 : Shape := ⟨2, ![4096, 512]⟩
abbrev S4096 : Shape := ⟨1, ![4096]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S4096x64 .f32) (main_arg1 : FVec F S4096x512 .f32) (main_arg2 : IVec S4096 32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S4096x64 : Shape := ⟨2, ![4096, 64]⟩
abbrev S4096x512 : Shape := ⟨2, ![4096, 512]⟩
abbrev S4096 : Shape := ⟨1, ![4096]⟩
abbrev S4096x64x512 : Shape := ⟨3, ![4096, 64, 512]⟩
abbrev S128x64 : Shape := ⟨2, ![128, 64]⟩
abbrev S128x512 : Shape := ⟨2, ![128, 512]⟩
abbrev S128x64x512 : Shape := ⟨3, ![128, 64, 512]⟩
abbrev S16x64 : Shape := ⟨2, ![16, 64]⟩
abbrev S16x512 : Shape := ⟨2, ![16, 512]⟩
abbrev S16x64x1 : Shape := ⟨3, ![16, 64, 1]⟩
abbrev S16x1x512 : Shape := ⟨3, ![16, 1, 512]⟩
abbrev S16x64x512 : Shape := ⟨3, ![16, 64, 512]⟩
abbrev S_ : Shape := ⟨0, ![]⟩

abbrev nBuf : Space → Nat
  | .hbm => 10
  | .vmem => 11
  | .smem => 0
  | _ => 0

abbrev bufTy : (tb : Table) → Fin (tcTables nBuf tb) → BufTy
  | .hbm, ⟨0, _⟩ => ⟨S4096x64, .f32⟩
  | .hbm, ⟨1, _⟩ => ⟨S4096x512, .f32⟩
  | .hbm, ⟨2, _⟩ => ⟨S4096, .i32⟩
  | .hbm, ⟨3, _⟩ => ⟨S4096x64, .f32⟩
  | .hbm, ⟨4, _⟩ => ⟨S4096x64, .i32⟩
  | .hbm, ⟨5, _⟩ => ⟨S4096x64x512, .f32⟩
  | .hbm, ⟨6, _⟩ => ⟨S_, .i32⟩
  | .hbm, ⟨7, _⟩ => ⟨S4096x64, .i32⟩
  | .hbm, ⟨8, _⟩ => ⟨S4096x64, .i1⟩
  | .hbm, ⟨9, _⟩ => ⟨S4096x64, .i1⟩
  | .local _ .vmem, ⟨0, _⟩ => ⟨S128x64, .f32⟩
  | .local _ .vmem, ⟨1, _⟩ => ⟨S128x64, .f32⟩
  | .local _ .vmem, ⟨2, _⟩ => ⟨S128x512, .f32⟩
  | .local _ .vmem, ⟨3, _⟩ => ⟨S128x512, .f32⟩
  | .local _ .vmem, ⟨4, _⟩ => ⟨S128x64, .f32⟩
  | .local _ .vmem, ⟨5, _⟩ => ⟨S128x64, .f32⟩
  | .local _ .vmem, ⟨6, _⟩ => ⟨S128x64, .i32⟩
  | .local _ .vmem, ⟨7, _⟩ => ⟨S128x64, .i32⟩
  | .local _ .vmem, ⟨8, _⟩ => ⟨S128x64x512, .f32⟩
  | .local _ .vmem, ⟨9, _⟩ => ⟨S128x64x512, .f32⟩
  | .local _ .vmem, ⟨10, _⟩ => ⟨S128x64, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v20 : BitVec 32 := Scalar.addi c0_i32 c8_i32
  let c1_i32 : BitVec 32 := 1#32
  ⟨c0_i32, v20, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32 : BitVec 32 := 16#32
  let v21 : BitVec 32 := Scalar.muli arg7 c16_i32
  v21
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c16_i32 : BitVec 32 := 16#32
  let v21 : BitVec 32 := Scalar.muli arg7 c16_i32
  let v22 : BitVec 32 := v21
  let v23 : Index := Scalar.indexCast v22
  let c0_13 : Index := 0#32
  ![v23.toNat, 0]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c16_i32 : BitVec 32 := 16#32
  let v21 : BitVec 32 := Scalar.muli arg7 c16_i32
  let v22 : BitVec 32 := v21
  let v25 : Index := Scalar.indexCast v22
  let c0_14 : Index := 0#32
  ![v25.toNat, 0]
def k0_off3 (k0_t1 : Fin k0_t1_loop.trips) : Fin 3 → Nat :=
  let c0_i32 : BitVec 32 := 0#32
  let c1_i32 : BitVec 32 := 1#32
  let arg7 : BitVec 32 := Scf.iv c0_i32 c1_i32 k0_t1
  let c16_i32 : BitVec 32 := 16#32
  let v21 : BitVec 32 := Scalar.muli arg7 c16_i32
  let v22 : BitVec 32 := v21
  let v32 : Index := Scalar.indexCast v22
  let c0_15 : Index := 0#32
  let c0_16 : Index := 0#32
  ![v32.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x64 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S128x64_S128x64_0_0 : ∀ a, (![0, 0] : Fin 2 → Nat) a + S128x64.size a ≤ S128x64.size a
  h_S128x64 : 0 < S128x64.numel
  natLt_1_32 : 1 < 32
  shapeCasts_S128x64_S128x64 : S128x64.ShapeCasts S128x64
  h_S16x64 : 0 < S16x64.numel
  h_S16x512 : 0 < S16x512.numel
  shapeCasts_S16x64_S16x64x1 : S16x64.ShapeCasts S16x64x1
  shapeCasts_S16x512_S16x1x512 : S16x512.ShapeCasts S16x1x512
  broadcasts_S16x64x1_S16x64x512 : S16x64x1.Broadcasts S16x64x512
  broadcasts_S16x1x512_S16x64x512 : S16x1x512.Broadcasts S16x64x512
  h_S16x64x512 : 0 < S16x64x512.numel
  bcast_S_S4096x64 : S_.BroadcastsInDim S4096x64 (![] : Fin 0 → Fin S4096x64.rank)
  hrank0 : 0 < grid0.rank
  k0_t1_ok : k0_t1_loop.OK
  k0_mult1_dvd : ∀ k0_t1 : Fin k0_t1_loop.trips, 16 ∣ (k0_mult1 k0_t1).toNat
  k0_off1_inb : ∀ k0_t1 : Fin k0_t1_loop.trips, ∀ a, (k0_off1 k0_t1) a + S16x64.size a ≤ S128x64.size a
  k0_off2_inb : ∀ k0_t1 : Fin k0_t1_loop.trips, ∀ a, (k0_off2 k0_t1) a + S16x512.size a ≤ S128x512.size a
  k0_off3_inb : ∀ k0_t1 : Fin k0_t1_loop.trips, ∀ a, (k0_off3 k0_t1) a + S16x64x512.size a ≤ S128x64x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S4096x64.size a
  hwx0_0 : ∀ i : grid0.Coords, EltTy.bits .f32 = 32 ∨ (Rect.block (s := S4096x64) S128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S4096x512.size a
  hwx0_1 : ∀ i : grid0.Coords, EltTy.bits .f32 = 32 ∨ (Rect.block (s := S4096x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S4096x64.size a
  hwx0_2 : ∀ i : grid0.Coords, EltTy.bits .f32 = 32 ∨ (Rect.block (s := S4096x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S4096x64.size a
  hwx0_3 : ∀ i : grid0.Coords, EltTy.bits .i32 = 32 ∨ (Rect.block (s := S4096x64) S128x64.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x64x512.size a ≤ S4096x64x512.size a
  hwx0_4 : ∀ i : grid0.Coords, EltTy.bits .f32 = 32 ∨ (Rect.block (s := S4096x64x512) S128x64x512.size (cc0_transform_4 i) (hinb0_4 i)).WholeWords (EltTy.packing .f32)

variable [Facts₀]

abbrev win0_0 : Pipeline.Window sig grid0 :=
  Pipeline.Window.ofSpec (Memref.whole main_arg0) S128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S128x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S128x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S128x64x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x64 : Shape := ⟨2, ![4096, 64]⟩
abbrev S4096x512 : Shape := ⟨2, ![4096, 512]⟩
abbrev S4096 : Shape := ⟨1, ![4096]⟩
abbrev S_ : Shape := ⟨0, ![]⟩
abbrev S4096x64x1 : Shape := ⟨3, ![4096, 64, 1]⟩
abbrev S4096x1x512 : Shape := ⟨3, ![4096, 1, 512]⟩
abbrev S4096x64x512 : Shape := ⟨3, ![4096, 64, 512]⟩

abbrev nBuf : Space → Nat
  | .hbm => 28
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x512, .f32⟩
  | .hbm, ⟨2, _⟩ => ⟨S4096, .i32⟩
  | .hbm, ⟨3, _⟩ => ⟨S_, .f32⟩
  | .hbm, ⟨4, _⟩ => ⟨S4096x64, .f32⟩
  | .hbm, ⟨5, _⟩ => ⟨S4096x64, .f32⟩
  | .hbm, ⟨6, _⟩ => ⟨S4096x64, .f32⟩
  | .hbm, ⟨7, _⟩ => ⟨S_, .f32⟩
  | .hbm, ⟨8, _⟩ => ⟨S4096x64, .f32⟩
  | .hbm, ⟨9, _⟩ => ⟨S4096x64, .f32⟩
  | .hbm, ⟨10, _⟩ => ⟨S_, .f32⟩
  | .hbm, ⟨11, _⟩ => ⟨S4096x64, .f32⟩
  | .hbm, ⟨12, _⟩ => ⟨S4096x64, .f32⟩
  | .hbm, ⟨13, _⟩ => ⟨S_, .f32⟩
  | .hbm, ⟨14, _⟩ => ⟨S4096x64, .f32⟩
  | .hbm, ⟨15, _⟩ => ⟨S4096x64, .f32⟩
  | .hbm, ⟨16, _⟩ => ⟨S_, .f32⟩
  | .hbm, ⟨17, _⟩ => ⟨S4096x64, .f32⟩
  | .hbm, ⟨18, _⟩ => ⟨S4096x64, .i1⟩
  | .hbm, ⟨19, _⟩ => ⟨S_, .f32⟩
  | .hbm, ⟨20, _⟩ => ⟨S_, .f32⟩
  | .hbm, ⟨21, _⟩ => ⟨S4096x64, .f32⟩
  | .hbm, ⟨22, _⟩ => ⟨S4096x64, .f32⟩
  | .hbm, ⟨23, _⟩ => ⟨S4096x64x1, .f32⟩
  | .hbm, ⟨24, _⟩ => ⟨S4096x1x512, .f32⟩
  | .hbm, ⟨25, _⟩ => ⟨S4096x64x512, .f32⟩
  | .hbm, ⟨26, _⟩ => ⟨S4096x64x512, .f32⟩
  | .hbm, ⟨27, _⟩ => ⟨S4096x64x512, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_cst_4 : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]

class Facts₀ : Prop where
  bcast_S_S4096x64 : S_.BroadcastsInDim S4096x64 (![] : Fin 0 → Fin S4096x64.rank)
  bcast_S4096x64_S4096x64x1_0_1 : S4096x64.BroadcastsInDim S4096x64x1 (![0, 1] : Fin 2 → Fin S4096x64x1.rank)
  bcast_S4096x512_S4096x1x512_0_2 : S4096x512.BroadcastsInDim S4096x1x512 (![0, 2] : Fin 2 → Fin S4096x1x512.rank)
  bcast_S4096x64x1_S4096x64x512_0_1_2 : S4096x64x1.BroadcastsInDim S4096x64x512 (![0, 1, 2] : Fin 3 → Fin S4096x64x512.rank)
  bcast_S4096x1x512_S4096x64x512_0_1_2 : S4096x1x512.BroadcastsInDim S4096x64x512 (![0, 1, 2] : Fin 3 → Fin S4096x64x512.rank)

variable [Facts₀]

class Facts : Prop extends Facts₀ where

variable [Facts]
-- ==== Proof.GateLaw.lean ====
/-
  The scalar mathematics of the gate. On the extended reals the gate value of an input `x` is
  `1 / (1 + (x·x)·(x·x))`. One program reaches the fourth power by squaring twice, the other as the real
  power `|x / 1| ^ 4`; the two agree at every extended real: on a real `r`, `|r| ^ 4 = (r·r)·(r·r)`, and at
  either infinity both fourth powers are `+∞`. No finiteness of the input is needed anywhere.
-/
import Idealize.ShloMosaic.PureOps.Ideal
import Idealize.ShloMosaic.PureOps.Ideal.Laws

noncomputable section

namespace Cert.Gate

open Idealize.ShloMosaic

/-- The f32 word of `1.0` denotes the real `1`. -/
theorem word_one : Ideal.ofBits .f32 0x3F800000#32 = 1 := by
  simp [Ideal.ofBits, Ideal.ieee, -EReal.coe_mul]; norm_num

/-- The f32 word of `4.0` denotes the real `4`. -/
theorem word_four : Ideal.ofBits .f32 0x40800000#32 = ((4 : ℝ) : EReal) := by
  simp [Ideal.ofBits, Ideal.ieee, -EReal.coe_mul]; norm_num

/-- The gate: `1 / (1 + x⁴)`, the fourth power spelt as two squarings. -/
def gate (x : EReal) : EReal := Ideal.div 1 (1 + (x * x) * (x * x))

/-- The threshold `0.5`, kept as its word: both programs compare against the same word. -/
def half : EReal := Ideal.ofBits .f32 0x3F000000#32

/-- The routing decision: is the gate at least the threshold? -/
def routed (x : EReal) : BitVec 1 := Ideal.cmp .oge (gate x) half

/-- The dispatch weight: the gate where routed, zero elsewhere. -/
def weight (x : EReal) : EReal := Scalar.select (routed x) (gate x) 0

/-- Dividing by one changes nothing, at the infinities too. -/
theorem div_one (x : EReal) : Ideal.div x 1 = x := by
  unfold Ideal.div
  rw [if_neg one_ne_zero, inv_one, mul_one]

/-- The fourth real power of `|x / 1|` is the double square of `x`, at every extended real. -/
theorem pow_four_abs (x : EReal) :
    Ideal.pow (max (Ideal.div x 1) (-(Ideal.div x 1))) ((4 : ℝ) : EReal) = (x * x) * (x * x) := by
  rw [div_one]
  induction x using EReal.rec with
  | bot =>
    rw [EReal.neg_bot, max_eq_right bot_le, Ideal.pow_top, if_pos (by exact_mod_cast (by norm_num : (0:ℝ) < 4)),
      EReal.bot_mul_bot, EReal.top_mul_top]
  | top =>
    rw [EReal.neg_top, max_eq_left bot_le, Ideal.pow_top, if_pos (by exact_mod_cast (by norm_num : (0:ℝ) < 4)),
      EReal.top_mul_top, EReal.top_mul_top]
  | coe r =>
    have h1 : max (r : EReal) (-(r : EReal)) = ((|r| : ℝ) : EReal) := by
      rw [← EReal.coe_neg, abs_eq_max_neg]; exact (EReal.coe_strictMono.monotone.map_max).symm
    have h2 : Real.rpow |r| 4 = (r * r) * (r * r) := by
      show |r| ^ (4 : ℝ) = _
      rw [show (4 : ℝ) = ((4 : ℕ) : ℝ) by norm_num, Real.rpow_natCast]
      have : |r| ^ 4 = (|r| * |r|) * (|r| * |r|) := by ring
      rw [this, abs_mul_abs_self]
    rw [h1, Ideal.pow_coe_coe, h2, EReal.coe_mul, EReal.coe_mul]

end Cert.Gate

end
-- ==== Proof.GateArrays.lean ====
/-
  The three results as whole-array functions of the two float arguments `X` (4096 × 64 gate inputs) and `A`
  (4096 × 512 activations), index by index: the gate array, the routing mask, and the dispatch tensor
  `(b, p, d) ↦ weight(X(b, p)) · A(b, d)`.
-/
import proofs.«167890_j74062416052252_2_alg».proof.Proof.GateLaw

noncomputable section

namespace Cert.Gate

open Idealize.ShloMosaic

abbrev SX : Shape := ⟨2, ![4096, 64]⟩
abbrev SA : Shape := ⟨2, ![4096, 512]⟩
abbrev SD : Shape := ⟨3, ![4096, 64, 512]⟩

/-- The gate input an entry `(b, p, d)` of the dispatch tensor depends on: `(b, p)`. -/
def gateIx (j : SD.Idx) : SX.Idx := fun a => match a with
  | ⟨0, _⟩ => ⟨(j 0).val, (j 0).isLt⟩
  | ⟨1, _⟩ => ⟨(j 1).val, (j 1).isLt⟩

/-- The activation an entry `(b, p, d)` of the dispatch tensor depends on: `(b, d)`. -/
def actIx (j : SD.Idx) : SA.Idx := fun a => match a with
  | ⟨0, _⟩ => ⟨(j 0).val, (j 0).isLt⟩
  | ⟨1, _⟩ => ⟨(j 2).val, (j 2).isLt⟩

/-- The gate of every input. -/
def gateArr (X : SX.Idx → EReal) : SX.Idx → EReal := fun i => gate (X i)

/-- The routing decision of every input. -/
def routedArr (X : SX.Idx → EReal) : SX.Idx → BitVec 1 := fun i => routed (X i)

/-- The dispatch tensor: the weight of `(b, p)` times the activation at `(b, d)`. -/
def dispatchArr (X : SX.Idx → EReal) (A : SA.Idx → EReal) : SD.Idx → EReal :=
  fun j => weight (X (gateIx j)) * A (actIx j)

end Cert.Gate

end
-- ==== Proof.RefSide.lean ====
/-
  The reference computes the three whole-array functions: its gate `1 / (1 + |x / 1| ^ 4)` is the gate of
  `GateLaw` at every extended real (the real fourth power of the absolute value is the double square), its mask the
  same comparison against the same threshold word, and its dispatch tensor the product of the selected gate,
  broadcast along the last axis, with the activations, broadcast along the middle axis.
-/
import proofs.«167890_j74062416052252_2_alg».proof.Proof.Gen.ReferenceIdeal.Run
import proofs.«167890_j74062416052252_2_alg».proof.Proof.Gen.ReferenceIdeal.Read
import proofs.«167890_j74062416052252_2_alg».proof.Proof.GateArrays
import Idealize.ShloMosaic.PureOps.Ideal.Laws

noncomputable section

namespace Cert.ReferenceIdeal.RefValue

open Idealize.ShloMosaic Cert.ReferenceIdeal Cert.ReferenceIdeal.Read Cert.Gate

/-- The reference's gate array is the gate of every input. -/
theorem gate_eq (X : S4096x64.Idx → EReal) : val_main_v8 (F := Ideal) X = gateArr X := by
  funext i
  rw [val_main_v8_apply, val_main_v7_apply, val_main_cst_2_apply, val_main_v6_apply, val_main_v5_apply,
    val_main_cst_1_apply, val_main_v4_apply, val_main_v3_apply, val_main_cst_0_apply, val_main_v2_apply,
    val_main_v1_apply, val_main_v0_apply, val_main_cst_apply]
  simp only [Ideal.hostDivf_def, Ideal.ofBits_def, Ideal.addf_def, Ideal.hostPowf_def, Ideal.hostAbsf_def,
    Ideal.absf_def, word_one, word_four, pow_four_abs]
  rfl

/-- The reference's mask is the routing decision of every input. -/
theorem routed_eq (X : S4096x64.Idx → EReal) : val_main_v10 (F := Ideal) X = routedArr X := by
  funext i
  rw [val_main_v10_apply, val_main_v9_apply, val_main_cst_3_apply, gate_eq]
  rfl

/-- The reference's dispatch tensor: at `(b, p, d)` the selected gate of `(b, p)` times the activation at `(b, d)`. -/
theorem dispatch_eq (X : S4096x64.Idx → EReal) (A : S4096x512.Idx → EReal) :
    val_main_v16 (F := Ideal) X A = dispatchArr X A := by
  funext j
  have e1 : idx_main_v12 (idx_main_v14 j) = gateIx j :=
    funext fun a => Fin.ext (by match a with | ⟨0, _⟩ => rfl | ⟨1, _⟩ => rfl)
  have e2 : idx_main_v13 (idx_main_v15 j) = actIx j :=
    funext fun a => Fin.ext (by match a with | ⟨0, _⟩ => rfl | ⟨1, _⟩ => rfl)
  rw [val_main_v16_apply, val_main_v14_apply, val_main_v12_apply, val_main_v11_apply, val_main_v15_apply,
    val_main_v13_apply, val_main_call0_v1_apply, val_main_call0_v0_apply, val_main_cst_4_apply, routed_eq, gate_eq,
    e1, e2]
  simp only [Ideal.ofBits_def, Ideal.ofBits_zero_f32, Ideal.mulf_def]
  rfl

end Cert.ReferenceIdeal.RefValue

end
-- ==== Proof.KernelBody.lean ====
/-
  What one grid point of the gate kernel leaves in its three output blocks, as values of the point's two input
  blocks `x` (128 rows of 64 gate inputs) and `a` (the same 128 rows of 512 activations):
    • the gate block is the body's first payload of `x`, stored whole;
    • the mask block is the body's third payload of `x` (the comparison widened to 32 bits), stored whole;
    • the dispatch block is filled by a loop of eight trips, trip `k` storing rows `16k … 16k+15`: the product of the
      weights the body parked in its scratch (its fourth payload of `x`, re-read sixteen rows at a time) with the
      matching sixteen rows of `a`. Every trip's piece is a restriction of ONE function of the block index,
      `(r, p, d) ↦ weight(r, p) · a(r, d)`, so whatever the order and number of trips the block holds that function.
-/
import proofs.«167890_j74062416052252_2_alg».proof.Proof.Gen.KernelIdeal.Frame
import Idealize.ShloMosaic.Lib.Pipeline.Value
import Idealize.ShloMosaic.Lib.ValueIdx
import Idealize.ShloMosaic.Lib.Tactic

set_option maxRecDepth 16384

noncomputable section
namespace Cert.KernelIdeal.Body
open Idealize.ShloMosaic Idealize.ShloMosaic.TcCoe Idealize.ShloMosaic.Tactic Idealize.SL.Sem
open Cert.KernelIdeal Cert.KernelIdeal.Gen

variable {F : FTy → Type} [FloatOps F]
variable (c : Dev nD) (i : grid0.Coords) (arg1 : Memref sig .tc .vmem S128x64 .f32) (harg1 : arg1.IsWhole) (arg2 : Memref sig .tc .vmem S128x512 .f32) (harg2 : arg2.IsWhole) (arg3 : Memref sig .tc .vmem S128x64 .f32) (harg3 : arg3.IsWhole) (arg4 : Memref sig .tc .vmem S128x64 .i32) (harg4 : arg4.IsWhole) (arg5 : Memref sig .tc .vmem S128x64x512 .f32) (harg5 : arg5.IsWhole) (arg6 : Memref sig .tc .vmem S128x64 .f32) (harg6 : arg6.IsWhole)
  (x0 : Vec F S128x64 .f32) (x1 : Vec F S128x512 .f32)

/-- The zero offsets of a whole-block access, however they are spelt. -/
theorem zeros2 : (![0, 0] : Fin 2 → Nat) = fun _ => 0 := funext fun a => by fin_cases a <;> rfl

/-- The gate block: one covering store of the first payload of the input block. -/
theorem gate_block : out0_A_2 c i arg1 harg1 arg2 harg2 arg3 harg3 arg4 harg4 arg5 harg5 arg6 harg6 x0 x1 = k0_pay1 x0 := by
  unfold out0_A_2
  rw [View.read_writes_eq_canon _ _ _ (cover0_A_2 c i arg1 harg1 arg2 harg2 arg3 harg3 arg4 harg4 arg5 harg5 arg6 harg6 x0 x1)]
  unfold kernelRun0_A
  dsimp only
  sl_unfold_words
  rw [View.canon_unit_zero zeros2]
  simp only [View.readAt_eq_ld, harg1.read_unread, View.ld_unit_zero (S := S128x64) zeros2]

/-- The mask block: one covering store of the third payload of the input block. -/
theorem mask_block : out0_A_3 c i arg1 harg1 arg2 harg2 arg3 harg3 arg4 harg4 arg5 harg5 arg6 harg6 x0 x1 = k0_pay3 x0 := by
  unfold out0_A_3
  rw [View.read_writes_eq_canon _ _ _ (cover0_A_3 c i arg1 harg1 arg2 harg2 arg3 harg3 arg4 harg4 arg5 harg5 arg6 harg6 x0 x1)]
  unfold kernelRun0_A
  dsimp only
  sl_unfold_words
  rw [View.canon_unit_zero zeros2]
  simp only [View.readAt_eq_ld, harg1.read_unread, View.ld_unit_zero (S := S128x64) zeros2]

section Trips
variable (𝒱 : Variants) (bd : Option 𝒱.V) (X2 : BufTy.Contents (Elt F) arg2.view.ty) (X6 : BufTy.Contents (Elt F) arg6.view.ty)

/-- Trip `k` writes ONE piece: rows `16k … 16k+15` of the dispatch block, the broadcast product of the sixteen
    scratch rows and the sixteen activation rows it loads. -/
theorem trip_piece (k : Fin k0_t1_loop.trips) :
    tripL_k0_t1 (F := F) 𝒱 c bd i arg1 harg1 arg2 harg2 arg3 harg3 arg4 harg4 arg5 harg5 arg6 harg6 X2 X6 k
      = [⟨Rect.unit (s := S128x64x512) (k0_off3 k) S16x64x512.size (k0_off3_inb k),
          k0_pay5 (View.readAt (Elt F) arg6.view (Rect.unit (s := S128x64) (k0_off1 k) S16x64.size (k0_off1_inb k)).toLoadRect X6)
            (View.readAt (Elt F) arg2.view (Rect.unit (s := S128x512) (k0_off2 k) S16x512.size (k0_off2_inb k)).toLoadRect X2)⟩] := by
  unfold tripL_k0_t1 trip_k0_t1
  rfl

/-- Every piece written before trip `n` is some trip's piece. -/
theorem mem_trips : ∀ (n : ℕ) (p : View.Piece (Elt F) S128x64x512 .f32),
    p ∈ pb_k0_t1 (F := F) 𝒱 c bd i arg1 harg1 arg2 harg2 arg3 harg3 arg4 harg4 arg5 harg5 arg6 harg6 X2 X6 n →
      ∃ k : Fin k0_t1_loop.trips, p ∈ tripL_k0_t1 (F := F) 𝒱 c bd i arg1 harg1 arg2 harg2 arg3 harg3 arg4 harg4 arg5 harg5 arg6 harg6 X2 X6 k := by
  intro n
  induction n with
  | zero => intro p hp; rw [pb_k0_t1.eq_1] at hp; exact absurd hp List.not_mem_nil
  | succ n ih =>
    intro p hp
    rw [pb_k0_t1.eq_2] at hp
    unfold pb_k0_t1Step at hp
    by_cases h : n < k0_t1_loop.trips
    · rw [dif_pos h] at hp
      rcases List.mem_append.mp hp with h1 | h2
      · exact ⟨⟨n, h⟩, h1⟩
      · exact ih p h2
    · rw [dif_neg h] at hp
      exact ih p hp
end Trips

/-- The dispatch block's pieces are those of all the loop's trips, run over the activation block as loaded and the
    scratch as the body's one store of the weights left it. -/
theorem pieces4 :
    (kernelRun0_A c i arg1 harg1 arg2 harg2 arg3 harg3 arg4 harg4 arg5 harg5 arg6 harg6 x0 x1).2.2.1
      = pb_k0_t1 (F := F) Variants.none c none i arg1 harg1 arg2 harg2 arg3 harg3 arg4 harg4 arg5 harg5 arg6 harg6 (harg2.unread x1)
          (arg6.view.writes (Elt F) arg6.view.junk
            [⟨Rect.unit (s := S128x64) ![0, 0] S128x64.size inb_S128x64_S128x64_0_0,
              k0_pay4 (View.readAt (Elt F) arg1.view (Rect.unit (s := S128x64) ![0, 0] S128x64.size inb_S128x64_S128x64_0_0).toLoadRect (harg1.unread x0))⟩])
          k0_t1_loop.trips := by
  unfold kernelRun0_A
  dsimp only
  sl_unfold_words
  rfl

/-- Row `(y₀, y₁)` and column `(y₀, y₂)` of an index `(y₀, y₁, y₂)` of the block. -/
def rowIx (y : S128x64x512.Idx) : S128x64.Idx := fun a => match a with
  | ⟨0, _⟩ => ⟨(y 0).val, (y 0).isLt⟩
  | ⟨1, _⟩ => ⟨(y 1).val, (y 1).isLt⟩
def colIx (y : S128x64x512.Idx) : S128x512.Idx := fun a => match a with
  | ⟨0, _⟩ => ⟨(y 0).val, (y 0).isLt⟩
  | ⟨1, _⟩ => ⟨(y 2).val, (y 2).isLt⟩

/-- One trip's payload at a local index `(r, p, d)` of its sixteen rows: with `W` the scratch contents and `A` the
    activation block, it is `W(16k + r, p) · A(16k + r, d)` — the two reshapes add a unit axis, the two broadcasts
    repeat along it, and the loads start at row `16k`. -/
theorem chunk_payload (W : S128x64.Idx → F .f32) (A : S128x512.Idx → F .f32) (k : Fin k0_t1_loop.trips)
    (x : S16x64x512.Idx) (y : S128x64x512.Idx)
    (h0 : (y 0).val = 16 * k.val + (x 0).val) (h1 : (y 1).val = (x 1).val) (h2 : (y 2).val = (x 2).val) :
    k0_pay5 (View.ld W (Rect.unit (s := S128x64) (k0_off1 k) S16x64.size (k0_off1_inb k)))
        (View.ld A (Rect.unit (s := S128x512) (k0_off2 k) S16x512.size (k0_off2_inb k))) x
      = FloatOps.mulf (W (rowIx y)) (A (colIx y)) := by
  let kw3 : S16x64x1.Idx := fun a => match a with
    | ⟨0, _⟩ => ⟨(x 0).val, (x 0).isLt⟩
    | ⟨1, _⟩ => ⟨(x 1).val, (x 1).isLt⟩
    | ⟨2, _⟩ => ⟨0, Nat.one_pos⟩
  let kw2 : S16x64.Idx := fun a => match a with
    | ⟨0, _⟩ => ⟨(x 0).val, (x 0).isLt⟩
    | ⟨1, _⟩ => ⟨(x 1).val, (x 1).isLt⟩
  let ka3 : S16x1x512.Idx := fun a => match a with
    | ⟨0, _⟩ => ⟨(x 0).val, (x 0).isLt⟩
    | ⟨1, _⟩ => ⟨0, Nat.one_pos⟩
    | ⟨2, _⟩ => ⟨(x 2).val, (x 2).isLt⟩
  let ka2 : S16x512.Idx := fun a => match a with
    | ⟨0, _⟩ => ⟨(x 0).val, (x 0).isLt⟩
    | ⟨1, _⟩ => ⟨(x 2).val, (x 2).isLt⟩
  have ew : ∀ v : Vec F S16x64 .f32,
      broadcastTo S16x64x512 (shapeCast S16x64x1 v shapeCasts_S16x64_S16x64x1) broadcasts_S16x64x1_S16x64x512 x = v kw2 := by
    intro v
    refine (broadcastTo_apply _ _ x kw3 ?_).trans (shapeCast_apply _ _ kw3 kw2 ?_)
    · intro a
      match a with
      | ⟨0, _⟩ => show (x 0).val = if (16 : ℕ) = 1 then 0 else (x 0).val; rw [if_neg (by decide)]
      | ⟨1, _⟩ => show (x 1).val = if (64 : ℕ) = 1 then 0 else (x 1).val; rw [if_neg (by decide)]
      | ⟨2, _⟩ => show 0 = if (1 : ℕ) = 1 then 0 else (x 2).val; rw [if_pos rfl]
    · rw [Shape.rowMajor_val_two, Shape.rowMajor_val_three]
      show (x 0).val * 64 + (x 1).val = ((x 0).val * 64 + (x 1).val) * 1 + 0
      omega
  have ea : ∀ v : Vec F S16x512 .f32,
      broadcastTo S16x64x512 (shapeCast S16x1x512 v shapeCasts_S16x512_S16x1x512) broadcasts_S16x1x512_S16x64x512 x = v ka2 := by
    intro v
    refine (broadcastTo_apply _ _ x ka3 ?_).trans (shapeCast_apply _ _ ka3 ka2 ?_)
    · intro a
      match a with
      | ⟨0, _⟩ => show (x 0).val = if (16 : ℕ) = 1 then 0 else (x 0).val; rw [if_neg (by decide)]
      | ⟨1, _⟩ => show 0 = if (1 : ℕ) = 1 then 0 else (x 1).val; rw [if_pos rfl]
      | ⟨2, _⟩ => show (x 2).val = if (512 : ℕ) = 1 then 0 else (x 2).val; rw [if_neg (by decide)]
    · rw [Shape.rowMajor_val_two, Shape.rowMajor_val_three]
      show (x 0).val * 512 + (x 2).val = ((x 0).val * 1 + 0) * 512 + (x 2).val
      omega
  unfold k0_pay5
  show FloatOps.mulf (broadcastTo S16x64x512 (shapeCast S16x64x1 _ shapeCasts_S16x64_S16x64x1) broadcasts_S16x64x1_S16x64x512 x)
      (broadcastTo S16x64x512 (shapeCast S16x1x512 _ shapeCasts_S16x512_S16x1x512) broadcasts_S16x1x512_S16x64x512 x) = _
  rw [ew, ea]
  have rw_ : (Rect.unit (s := S128x64) (k0_off1 k) S16x64.size (k0_off1_inb k)).idx kw2 = rowIx y := by
    funext a; apply Fin.ext
    match a with
    | ⟨0, _⟩ => show k0_off1 k 0 + 1 * (x 0).val = (y 0).val; rw [k0_off1_eq]; show 16 * k.val + 1 * (x 0).val = _; omega
    | ⟨1, _⟩ => show k0_off1 k 1 + 1 * (x 1).val = (y 1).val; rw [k0_off1_eq]; show 0 + 1 * (x 1).val = _; omega
  have ra_ : (Rect.unit (s := S128x512) (k0_off2 k) S16x512.size (k0_off2_inb k)).idx ka2 = colIx y := by
    funext a; apply Fin.ext
    match a with
    | ⟨0, _⟩ => show k0_off2 k 0 + 1 * (x 0).val = (y 0).val; rw [k0_off2_eq]; show 16 * k.val + 1 * (x 0).val = _; omega
    | ⟨1, _⟩ => show k0_off2 k 1 + 1 * (x 2).val = (y 2).val; rw [k0_off2_eq]; show 0 + 1 * (x 2).val = _; omega
  show FloatOps.mulf (W ((Rect.unit (s := S128x64) (k0_off1 k) S16x64.size (k0_off1_inb k)).idx kw2))
      (A ((Rect.unit (s := S128x512) (k0_off2 k) S16x512.size (k0_off2_inb k)).idx ka2)) = _
  rw [rw_, ra_]

/-- After the body's one whole store into it, the scratch reads as the weights (the fourth payload of `x`). -/
theorem scratch_holds :
    arg6.view.read (Elt F) (arg6.view.writes (Elt F) arg6.view.junk
      [⟨Rect.unit (s := S128x64) ![0, 0] S128x64.size inb_S128x64_S128x64_0_0,
        k0_pay4 (View.readAt (Elt F) arg1.view (Rect.unit (s := S128x64) ![0, 0] S128x64.size inb_S128x64_S128x64_0_0).toLoadRect (harg1.unread x0))⟩])
      = k0_pay4 x0 := by
  rw [View.read_writes_eq_canon _ _ _ (fun y => ⟨_, List.mem_singleton_self _, View.mem_set_unit_zero zeros2 inb_S128x64_S128x64_0_0 y⟩),
    View.canon_unit_zero zeros2, View.readAt_eq_ld, harg1.read_unread, View.ld_unit_zero (S := S128x64) zeros2]

/-- THE DISPATCH BLOCK at an index `(r, p, d)`: the weight at `(r, p)` times the activation at `(r, d)`. -/
theorem dispatch_block (y : S128x64x512.Idx) :
    out0_A_4 c i arg1 harg1 arg2 harg2 arg3 harg3 arg4 harg4 arg5 harg5 arg6 harg6 x0 x1 y = FloatOps.mulf (k0_pay4 x0 (rowIx y)) (x1 (colIx y)) := by
  unfold out0_A_4
  rw [View.read_writes_apply_eq_canon _ _ y _ (cover0_A_4 c i arg1 harg1 arg2 harg2 arg3 harg3 arg4 harg4 arg5 harg5 arg6 harg6 x0 x1 y)]
  refine View.canon_apply_of_pieces (fun y => FloatOps.mulf (k0_pay4 x0 (rowIx y)) (x1 (colIx y))) _ ?_ y
    (cover0_A_4 c i arg1 harg1 arg2 harg2 arg3 harg3 arg4 harg4 arg5 harg5 arg6 harg6 x0 x1 y)
  rw [pieces4]
  intro p hp
  obtain ⟨k, hk⟩ := mem_trips c i arg1 harg1 arg2 harg2 arg3 harg3 arg4 harg4 arg5 harg5 arg6 harg6 Variants.none none _ _ _ p hp
  rw [trip_piece, List.mem_singleton] at hk
  subst hk
  intro x
  show k0_pay5 (View.ld (arg6.view.read (Elt F) (arg6.view.writes (Elt F) arg6.view.junk _))
        (Rect.unit (s := S128x64) (k0_off1 k) S16x64.size (k0_off1_inb k)))
      (View.ld (arg2.view.read (Elt F) (harg2.unread x1)) (Rect.unit (s := S128x512) (k0_off2 k) S16x512.size (k0_off2_inb k))) x = _
  rw [scratch_holds, harg2.read_unread]
  refine chunk_payload (k0_pay4 x0) x1 k x _ ?_ ?_ ?_
  · have e : k0_off3 k 0 = 16 * k.val := congrFun (k0_off3_eq k) 0
    show k0_off3 k 0 + 1 * (x 0).val = _; omega
  · have e : k0_off3 k 1 = 0 := congrFun (k0_off3_eq k) 1
    show k0_off3 k 1 + 1 * (x 1).val = _; omega
  · have e : k0_off3 k 2 = 0 := congrFun (k0_off3_eq k) 2
    show k0_off3 k 2 + 1 * (x 2).val = _; omega

end Cert.KernelIdeal.Body
end
-- ==== Proof.KernelArrays.lean ====
/-
  From blocks to arrays. Grid point `t` of 32 works on rows `128t … 128t+127` of every array: each input block is
  that row range of its argument, and each output block is written back to that row range of its result. What a
  point leaves in a block is the restriction of ONE whole-array function of the arguments (the gate of every input,
  the routing bit widened to a word, the weight times the activation), and the 32 row ranges tile the 4096 rows:
  so after the run each result array holds that function.
-/
import proofs.«167890_j74062416052252_2_alg».proof.Proof.KernelBody
import proofs.«167890_j74062416052252_2_alg».proof.Proof.GateArrays

set_option maxRecDepth 16384

noncomputable section

namespace Cert.KernelIdeal.Arrays

open Idealize.ShloMosaic Idealize.ShloMosaic.TcCoe Idealize.SL.Sem
open Idealize.ShloMosaic.Pipeline (Dat)
open Cert.KernelIdeal Cert.KernelIdeal.Gen Cert.KernelIdeal.Body Cert.Gate

/-! ## The body's payloads at an index, on the extended reals -/

/-- The first payload is the gate of the input: the multiplications by the word of `1.0` change nothing. -/
theorem pay1_apply (x0 : Vec Ideal S128x64 .f32) (y : S128x64.Idx) : k0_pay1 (F := Ideal) x0 y = gate (x0 y) := by
  show Ideal.div (Ideal.ofBits .f32 0x3F800000#32) (Ideal.ofBits .f32 0x3F800000#32
    + ((x0 y * Ideal.ofBits .f32 0x3F800000#32) * (x0 y * Ideal.ofBits .f32 0x3F800000#32))
      * ((x0 y * Ideal.ofBits .f32 0x3F800000#32) * (x0 y * Ideal.ofBits .f32 0x3F800000#32))) = _
  rw [word_one]
  simp only [mul_one]
  rfl

/-- The third payload is the routing bit, widened to 32 bits. -/
theorem pay3_apply (x0 : Vec Ideal S128x64 .f32) (y : S128x64.Idx) :
    k0_pay3 (F := Ideal) x0 y = (routed (x0 y)).setWidth 32 := by
  show (Ideal.cmp .oge (k0_pay1 (F := Ideal) x0 y) half).setWidth 32 = _
  rw [pay1_apply]
  rfl

/-- The fourth payload is the weight: the gate where routed, zero elsewhere. -/
theorem pay4_apply (x0 : Vec Ideal S128x64 .f32) (y : S128x64.Idx) : k0_pay4 (F := Ideal) x0 y = weight (x0 y) := by
  show shapeCast S128x64 (select (k0_pay2 (F := Ideal) x0) (k0_pay1 (F := Ideal) x0)
    (broadcast S128x64 (Scalar.ofBits .f32 0x00000000#32))) shapeCasts_S128x64_S128x64 y = _
  rw [shapeCast_self]
  show Scalar.select (Ideal.cmp .oge (k0_pay1 (F := Ideal) x0 y) half) (k0_pay1 (F := Ideal) x0 y)
    (Ideal.ofBits .f32 0x00000000#32) = _
  rw [pay1_apply, Ideal.ofBits_zero_f32]
  rfl

/-! ## Where each point's blocks sit -/

variable (m : (ℓ : Loc nD τ sig) → Buf (Elt Ideal) ℓ) (ρ : Dev nD → PrngReg)

/-- Every window's block at point `t` is block row `t` of its array, at block column zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-! ## The gate array -/

/-- What point `t` writes back of the gate is block `t` of the gate of the first argument. -/
theorem gate_flushed (c : Dev nD) (t : Fin cfg0.N) :
    (dats m 0 c).flushed 2 t = ((cfg0.win 2).blk t).view.read (Elt Ideal) (gateArr (V m c main_arg0)) := by
  show (cfg0.win 2).cut (grid0.coords t) ((dats m 0 c).after 2 t) = _
  rw [after0_2]
  unfold outsAt0
  dsimp only
  rw [gate_block]
  obtain ⟨e00, e01, -, -, e20, e21, -⟩ := idx_facts t
  funext j
  show k0_pay1 (F := Ideal) (iblk m c 0 t) j = gateArr (V m c main_arg0) (((cfg0.win 2).blk t).view.emb j)
  rw [pay1_apply]
  show gate (V m c main_arg0 (((cfg0.win 0).blk t).view.emb j)) = gate (V m c main_arg0 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 128 + 1 * (j 0).val = win0_2.index t (0 : Fin 2) * 128 + 1 * (j 0).val; rw [e00, e20]
    | ⟨1, _⟩ => show win0_0.index t (1 : Fin 2) * 64 + 1 * (j 1).val = win0_2.index t (1 : Fin 2) * 64 + 1 * (j 1).val; rw [e01, e21]
  rw [h0]

/-- An index of the gate array is in point `t`'s block iff each coordinate is in the block's range on its axis. -/
theorem mem_blk2 (t : Fin cfg0.N) (i : S4096x64.Idx) :
    i ∈ ((cfg0.win 2).blk t).view.set ↔ ∀ a : Fin 2, win0_2.index t a * S128x64.size a ≤ (i a).val
      ∧ (i a).val < win0_2.index t a * S128x64.size a + S128x64.size a := by
  show i ∈ ((View.whole main_v0_0).slice (win0_2.rect t)).set ↔ _
  rw [View.set_slice_whole, Rect.mem_set_unit]
  exact Iff.rfl

/-- Row `r` of the gate array is written back by point `r / 128`. -/
theorem cover2 (i : S4096x64.Idx) :
    ∃ t : Fin cfg0.N, (cfg0.win 2).flush t = true ∧ i ∈ ((cfg0.win 2).blk t).view.set := by
  have hi0 : (i 0).val < 4096 := (i 0).isLt
  have hi1 : (i 1).val < 64 := (i 1).isLt
  have hN : cfg0.N = 32 := N_0
  have ht : (i 0).val / 128 < cfg0.N := by rw [hN]; omega
  obtain ⟨-, -, -, -, e20, e21, -⟩ := idx_facts ⟨(i 0).val / 128, ht⟩
  refine ⟨⟨(i 0).val / 128, ht⟩, flush0_2 _, ?_⟩
  rw [mem_blk2]
  intro a
  match a with
  | ⟨0, _⟩ =>
    show win0_2.index ⟨(i 0).val / 128, ht⟩ (0 : Fin 2) * 128 ≤ (i 0).val
      ∧ (i 0).val < win0_2.index ⟨(i 0).val / 128, ht⟩ (0 : Fin 2) * 128 + 128
    rw [e20]; show (i 0).val / 128 * 128 ≤ (i 0).val ∧ (i 0).val < (i 0).val / 128 * 128 + 128; omega
  | ⟨1, _⟩ =>
    show win0_2.index ⟨(i 0).val / 128, ht⟩ (1 : Fin 2) * 64 ≤ (i 1).val
      ∧ (i 1).val < win0_2.index ⟨(i 0).val / 128, ht⟩ (1 : Fin 2) * 64 + 64
    rw [e21]; omega

/-- THE GATE ARRAY after the run: the gate of every entry of the first argument. -/
theorem gate_final (c : Dev nD) : (dats m 0 c).arrAt 2 cfg0.N = gateArr (V m c main_arg0) :=
  (dats m 0 c).arrAt_eq_of_cover 2 (gateArr (V m c main_arg0)) (fun t _ => gate_flushed m c t) cover2

/-! ## The mask words -/

/-- The routing bit of every input, widened to a 32-bit word: what the kernel's second result array holds. -/
def maskWords (X : SX.Idx → EReal) : SX.Idx → BitVec 32 := fun i => (routed (X i)).setWidth 32

/-- What point `t` writes back of the mask is block `t` of the widened routing bits of the first argument. -/
theorem mask_flushed (c : Dev nD) (t : Fin cfg0.N) :
    (dats m 0 c).flushed 3 t = ((cfg0.win 3).blk t).view.read (Elt Ideal) (maskWords (V m c main_arg0)) := by
  show (cfg0.win 3).cut (grid0.coords t) ((dats m 0 c).after 3 t) = _
  rw [after0_3]
  unfold outsAt0
  dsimp only
  rw [mask_block]
  obtain ⟨e00, e01, -, -, -, -, e30, e31, -⟩ := idx_facts t
  funext j
  show k0_pay3 (F := Ideal) (iblk m c 0 t) j = maskWords (V m c main_arg0) (((cfg0.win 3).blk t).view.emb j)
  rw [pay3_apply]
  show (routed (V m c main_arg0 (((cfg0.win 0).blk t).view.emb j))).setWidth 32
    = (routed (V m c main_arg0 (((cfg0.win 3).blk t).view.emb j))).setWidth 32
  have h0 : ((cfg0.win 0).blk t).view.emb j = ((cfg0.win 3).blk t).view.emb j := by
    funext a; apply Fin.ext
    match a with
    | ⟨0, _⟩ => show win0_0.index t (0 : Fin 2) * 128 + 1 * (j 0).val = win0_3.index t (0 : Fin 2) * 128 + 1 * (j 0).val; rw [e00, e30]
    | ⟨1, _⟩ => show win0_0.index t (1 : Fin 2) * 64 + 1 * (j 1).val = win0_3.index t (1 : Fin 2) * 64 + 1 * (j 1).val; rw [e01, e31]
  rw [h0]

theorem mem_blk3 (t : Fin cfg0.N) (i : S4096x64.Idx) :
    i ∈ ((cfg0.win 3).blk t).view.set ↔ ∀ a : Fin 2, win0_3.index t a * S128x64.size a ≤ (i a).val
      ∧ (i a).val < win0_3.index t a * S128x64.size a + S128x64.size a := by
  show i ∈ ((View.whole main_v0_1).slice (win0_3.rect t)).set ↔ _
  rw [View.set_slice_whole, Rect.mem_set_unit]
  exact Iff.rfl

theorem cover3 (i : S4096x64.Idx) :
    ∃ t : Fin cfg0.N, (cfg0.win 3).flush t = true ∧ i ∈ ((cfg0.win 3).blk t).view.set := by
  have hi0 : (i 0).val < 4096 := (i 0).isLt
  have hi1 : (i 1).val < 64 := (i 1).isLt
  have hN : cfg0.N = 32 := N_0
  have ht : (i 0).val / 128 < cfg0.N := by rw [hN]; omega
  obtain ⟨-, -, -, -, -, -, e30, e31, -⟩ := idx_facts ⟨(i 0).val / 128, ht⟩
  refine ⟨⟨(i 0).val / 128, ht⟩, flush0_3 _, ?_⟩
  rw [mem_blk3]
  intro a
  match a with
  | ⟨0, _⟩ =>
    show win0_3.index ⟨(i 0).val / 128, ht⟩ (0 : Fin 2) * 128 ≤ (i 0).val
      ∧ (i 0).val < win0_3.index ⟨(i 0).val / 128, ht⟩ (0 : Fin 2) * 128 + 128
    rw [e30]; show (i 0).val / 128 * 128 ≤ (i 0).val ∧ (i 0).val < (i 0).val / 128 * 128 + 128; omega
  | ⟨1, _⟩ =>
    show win0_3.index ⟨(i 0).val / 128, ht⟩ (1 : Fin 2) * 64 ≤ (i 1).val
      ∧ (i 1).val < win0_3.index ⟨(i 0).val / 128, ht⟩ (1 : Fin 2) * 64 + 64
    rw [e31]; omega

/-- THE MASK WORDS after the run. -/
theorem mask_final (c : Dev nD) : (dats m 0 c).arrAt 3 cfg0.N = maskWords (V m c main_arg0) :=
  (dats m 0 c).arrAt_eq_of_cover 3 (maskWords (V m c main_arg0)) (fun t _ => mask_flushed m c t) cover3

/-! ## The dispatch tensor -/

/-- What point `t` writes back of the dispatch tensor is block `t` of `weight(X(b, p)) · A(b, d)`: entry `(r, p, d)` of
    the block reads row `r` of both input blocks, and all three blocks start at array row `128t`. -/
theorem dispatch_flushed (c : Dev nD) (t : Fin cfg0.N) :
    (dats m 0 c).flushed 4 t
      = ((cfg0.win 4).blk t).view.read (Elt Ideal) (dispatchArr (V m c main_arg0) (V m c main_arg1)) := by
  show (cfg0.win 4).cut (grid0.coords t) ((dats m 0 c).after 4 t) = _
  rw [after0_4]
  unfold outsAt0
  dsimp only
  obtain ⟨e00, e01, e10, e11, -, -, -, -, e40, e41, e42⟩ := idx_facts t
  funext j
  refine (dispatch_block c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) j).trans ?_
  rw [pay4_apply]
  show weight (V m c main_arg0 (((cfg0.win 0).blk t).view.emb (rowIx j)))
      * V m c main_arg1 (((cfg0.win 1).blk t).view.emb (colIx j))
    = weight (V m c main_arg0 (gateIx (((cfg0.win 4).blk t).view.emb j)))
      * V m c main_arg1 (actIx (((cfg0.win 4).blk t).view.emb j))
  have h0 : ((cfg0.win 0).blk t).view.emb (rowIx j) = gateIx (((cfg0.win 4).blk t).view.emb j) := by
    funext a; apply Fin.ext
    match a with
    | ⟨0, _⟩ => show win0_0.index t (0 : Fin 2) * 128 + 1 * (j 0).val = win0_4.index t (0 : Fin 3) * 128 + 1 * (j 0).val; rw [e00, e40]
    | ⟨1, _⟩ => show win0_0.index t (1 : Fin 2) * 64 + 1 * (j 1).val = win0_4.index t (1 : Fin 3) * 64 + 1 * (j 1).val; rw [e01, e41]
  have h1 : ((cfg0.win 1).blk t).view.emb (colIx j) = actIx (((cfg0.win 4).blk t).view.emb j) := by
    funext a; apply Fin.ext
    match a with
    | ⟨0, _⟩ => show win0_1.index t (0 : Fin 2) * 128 + 1 * (j 0).val = win0_4.index t (0 : Fin 3) * 128 + 1 * (j 0).val; rw [e10, e40]
    | ⟨1, _⟩ => show win0_1.index t (1 : Fin 2) * 512 + 1 * (j 2).val = win0_4.index t (2 : Fin 3) * 512 + 1 * (j 2).val; rw [e11, e42]
  rw [h0, h1]

theorem mem_blk4 (t : Fin cfg0.N) (i : S4096x64x512.Idx) :
    i ∈ ((cfg0.win 4).blk t).view.set ↔ ∀ a : Fin 3, win0_4.index t a * S128x64x512.size a ≤ (i a).val
      ∧ (i a).val < win0_4.index t a * S128x64x512.size a + S128x64x512.size a := by
  show i ∈ ((View.whole main_v0_2).slice (win0_4.rect t)).set ↔ _
  rw [View.set_slice_whole, Rect.mem_set_unit]
  exact Iff.rfl

theorem cover4 (i : S4096x64x512.Idx) :
    ∃ t : Fin cfg0.N, (cfg0.win 4).flush t = true ∧ i ∈ ((cfg0.win 4).blk t).view.set := by
  have hi0 : (i 0).val < 4096 := (i 0).isLt
  have hi1 : (i 1).val < 64 := (i 1).isLt
  have hi2 : (i 2).val < 512 := (i 2).isLt
  have hN : cfg0.N = 32 := N_0
  have ht : (i 0).val / 128 < cfg0.N := by rw [hN]; omega
  obtain ⟨-, -, -, -, -, -, -, -, e40, e41, e42⟩ := idx_facts ⟨(i 0).val / 128, ht⟩
  refine ⟨⟨(i 0).val / 128, ht⟩, flush0_4 _, ?_⟩
  rw [mem_blk4]
  intro a
  match a with
  | ⟨0, _⟩ =>
    show win0_4.index ⟨(i 0).val / 128, ht⟩ (0 : Fin 3) * 128 ≤ (i 0).val
      ∧ (i 0).val < win0_4.index ⟨(i 0).val / 128, ht⟩ (0 : Fin 3) * 128 + 128
    rw [e40]; show (i 0).val / 128 * 128 ≤ (i 0).val ∧ (i 0).val < (i 0).val / 128 * 128 + 128; omega
  | ⟨1, _⟩ =>
    show win0_4.index ⟨(i 0).val / 128, ht⟩ (1 : Fin 3) * 64 ≤ (i 1).val
      ∧ (i 1).val < win0_4.index ⟨(i 0).val / 128, ht⟩ (1 : Fin 3) * 64 + 64
    rw [e41]; omega
  | ⟨2, _⟩ =>
    show win0_4.index ⟨(i 0).val / 128, ht⟩ (2 : Fin 3) * 512 ≤ (i 2).val
      ∧ (i 2).val < win0_4.index ⟨(i 0).val / 128, ht⟩ (2 : Fin 3) * 512 + 512
    rw [e42]; omega

/-- THE DISPATCH TENSOR after the run. -/
theorem dispatch_final (c : Dev nD) :
    (dats m 0 c).arrAt 4 cfg0.N = dispatchArr (V m c main_arg0) (V m c main_arg1) :=
  (dats m 0 c).arrAt_eq_of_cover 4 (dispatchArr (V m c main_arg0) (V m c main_arg1))
    (fun t _ => dispatch_flushed m c t) cover4

end Cert.KernelIdeal.Arrays

end
-- ==== Proof.KernelRun.lean ====
/-
  The kernel program's run, read: after the region the first and third results are the region's gate array and
  dispatch tensor; the second result is computed by the host from the region's mask words — `word ≠ 0` — and a
  routing bit widened to a word is non-zero exactly when the bit is one, so the host gives the routing bit back.
-/
import proofs.«167890_j74062416052252_2_alg».proof.Proof.KernelArrays
import Idealize.ShloMosaic.Lib.StableHlo.Run

set_option maxRecDepth 16384

noncomputable section

namespace Cert.KernelIdeal.RunValue

open Idealize.ShloMosaic Idealize.ShloMosaic.TcCoe Idealize.SL.Sem
open Idealize.ShloMosaic.Pipeline (Dat)
open Cert.KernelIdeal Cert.KernelIdeal.Gen Cert.KernelIdeal.Body Cert.KernelIdeal.Arrays Cert.Gate

variable (m : (ℓ : Loc nD τ sig) → Buf (Elt Ideal) ℓ) (ρ : Dev nD → PrngReg)

/-- A bit widened to 32 bits differs from zero exactly when it is one. -/
theorem bit_back : ∀ b : BitVec 1, IntOp.cmpi .ne (b.setWidth 32) 0#32 = b := by decide

/-- The host's second result: the routing decision of every input. -/
theorem tail_mask (c : Dev nD) :
    Pipeline.afterTail₀ cfgs (dats m) 0 (V0 m) [hostOps1] c main_v3 = routedArr (V m c main_arg0) := by
  unfold Pipeline.afterTail₀
  show StableHlo.after hostOps1 _ (Proc.devRef .tc main_v3) = _
  after_results
  have e : Pipeline.withArrays (cfgs 0).spec c (V0 m c) (fun w => (dats m 0 c).arrAt w (cfgs 0).N)
      (Proc.devRef .tc main_v0_1) = maskWords (V m c main_arg0) :=
    (Pipeline.withArrays_arr spec0 launch0.win.arr_inj c _ _ 3).trans (mask_final m c)
  rw [e]
  funext i
  exact bit_back (routed (V m c main_arg0 i))

/-- THE RUN, READ: every weakly fair execution of the kernel program ends with its three results at the gate array, the
    routing mask and the dispatch tensor of its first two arguments, and with the arguments unchanged. -/
theorem run : θ_run defs (onTc (τ := τ) (main (F := Ideal))) ⟨m, fun _ => 0, ρ⟩ fun r => ∀ c : Dev nD,
      r.2.mem ((c.tc : Thread nD τ).loc main_v0_0) = gateArr (m ((c.tc : Thread nD τ).loc main_arg0))
      ∧ r.2.mem ((c.tc : Thread nD τ).loc main_v3) = routedArr (m ((c.tc : Thread nD τ).loc main_arg0))
      ∧ r.2.mem ((c.tc : Thread nD τ).loc main_v0_2)
          = dispatchArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).1 2).trans (gate_final m c),
      ((h c).2 main_v3 (Pipeline.mem_restRefs_of main_v3 (by decide) (by decide))).trans (tail_mask m c),
      ((h c).1 4).trans (dispatch_final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.RunValue

end
-- ==== Proof.lean ====
/-
  The gate kernel against its reference, on the extended reals.
  Both programs compute, from gate inputs `X` (4096 × 64) and activations `A` (4096 × 512):
    • the gate `g = 1 / (1 + x⁴)` of every input — the kernel squares twice, the reference takes the real power
      `|x / 1| ^ 4`; the two fourth powers agree at every extended real (Proof/GateLaw.lean), so no finiteness of the
      inputs is used;
    • the routing mask `g ≥ 0.5` — the kernel stores the bit as a 32-bit word and the host turns it back into a bit;
    • the dispatch tensor `(b, p, d) ↦ (g(b, p) where routed, else 0) · A(b, d)` — the kernel fills each 128-row block
      sixteen rows at a time from weights parked in a scratch buffer, the reference broadcasts and multiplies whole arrays.
  The kernel's side is read off its run block by block (Proof/KernelBody.lean, Proof/KernelArrays.lean,
  Proof/KernelRun.lean), the reference's off its run one operation at a time (Proof/RefSide.lean); both are stated
  as the same three functions of the arguments (Proof/GateArrays.lean). The integer argument is never read.
-/
import proofs.«167890_j74062416052252_2_alg».proof.Defs
import proofs.«167890_j74062416052252_2_alg».proof.Proof.Gen.Kernel
import proofs.«167890_j74062416052252_2_alg».proof.Proof.Gen.Kernel.Frame
import proofs.«167890_j74062416052252_2_alg».proof.Proof.Gen.KernelIdeal
import proofs.«167890_j74062416052252_2_alg».proof.Proof.Gen.KernelIdeal.Frame
import proofs.«167890_j74062416052252_2_alg».proof.Proof.Gen.ReferenceIdeal
import proofs.«167890_j74062416052252_2_alg».proof.Proof.Gen.ReferenceIdeal.Run
import proofs.«167890_j74062416052252_2_alg».proof.Proof.Gen.ReferenceIdeal.Read
import proofs.«167890_j74062416052252_2_alg».proof.Proof.Gen.Pre_finite_inputs
import proofs.«167890_j74062416052252_2_alg».proof.Proof.RefSide
import proofs.«167890_j74062416052252_2_alg».proof.Proof.KernelRun
import Idealize.ShloMosaic.Adequacy
import Idealize.ShloMosaic.Init

noncomputable section

namespace Cert.Proof

open Idealize.ShloMosaic Idealize.ShloMosaic.TcCoe Idealize.SL.Sem Cert.Gate

/-- The word-level kernel program runs and keeps its arguments. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and keeps its arguments: its run, the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Nothing of the kernel was rewritten on the way to the extended reals. -/
theorem preserves : Cert.preserves_Kernel_KernelIdeal := trivial

/-- From arguments that agree, both programs end with the gate array, the routing mask and the dispatch tensor of the
    first two arguments. -/
theorem algebraic : Cert.algebraic_KernelIdeal_ReferenceIdeal := by
  intro m ρ m' ρ' _ hagree
  refine ⟨fun c => gateArr (m ((c.tc : Thread Cert.KernelIdeal.nD Cert.KernelIdeal.τ).loc Cert.KernelIdeal.main_arg0)),
    fun c => routedArr (m ((c.tc : Thread Cert.KernelIdeal.nD Cert.KernelIdeal.τ).loc Cert.KernelIdeal.main_arg0)),
    fun c => dispatchArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.RunValue.run m ρ, ?_⟩
  refine (θ_run Cert.ReferenceIdeal.defs _ _).mono (fun _ h c => ?_) (Cert.ReferenceIdeal.Value.run (F := Ideal) m' ρ')
  obtain ⟨h8, h10, h16, ha0, ha1, ha2⟩ := h c
  refine ⟨h8.trans ?_, h10.trans ?_, h16.trans ?_, ha0, ha1, ha2⟩
  · rw [Cert.ReferenceIdeal.Read.val_main_v8_eq, Cert.ReferenceIdeal.RefValue.gate_eq, (hagree c).1]
  · rw [Cert.ReferenceIdeal.Read.val_main_v10_eq, Cert.ReferenceIdeal.RefValue.routed_eq, (hagree c).1]
  · rw [Cert.ReferenceIdeal.Read.val_main_v16_eq, Cert.ReferenceIdeal.RefValue.dispatch_eq, (hagree c).1, (hagree c).2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
